-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048x1 : Shape := ⟨2, ![2048, 1]⟩
abbrev S1 : Shape := ⟨1, ![1]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S1 .f32) (main_arg5 : FVec F S2048 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S4x4096x2048 .f32) (main_arg1 : FVec F S2048x2048 .f32) (main_arg2 : FVec F S2048x1 .f32) (main_arg3 : FVec F S1 .f32) (main_arg4 : FVec F S1 .f32) (main_arg5 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_v13 main_v16
-- ==== Kernel.lean ====
abbrev S4x4096x2048 : Shape := ⟨3, ![4, 4096, 2048]⟩
abbrev S2048x2048 : Shape := ⟨2, ![2048, 2048]⟩
abbrev S2048x1 : Shape := ⟨2, ![2048, 1]⟩
abbrev S1 : Shape := ⟨1, ![1]⟩
abbrev S2048 : Shape := ⟨1, ![2048]⟩
abbrev S16384x2048 : Shape := ⟨2, ![16384, 2048]⟩
abbrev S1x2048 : Shape := ⟨2, ![1, 2048]⟩
abbrev S1x1 : Shape := ⟨2, ![1, 1]⟩
abbrev S128x2048 : Shape := ⟨2, ![128, 2048]⟩
abbrev S256x2048 : Shape := ⟨2, ![256, 2048]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x1, .f32⟩
  | .hbm, ⟨3, _⟩ => ⟨S1, .f32⟩
  | .hbm, ⟨4, _⟩ => ⟨S1, .f32⟩
  | .hbm, ⟨5, _⟩ => ⟨S2048, .f32⟩
  | .hbm, ⟨6, _⟩ => ⟨S16384x2048, .f32⟩
  | .hbm, ⟨7, _⟩ => ⟨S1x2048, .f32⟩
  | .hbm, ⟨8, _⟩ => ⟨S1x2048, .f32⟩
  | .hbm, ⟨9, _⟩ => ⟨S1x1, .f32⟩
  | .hbm, ⟨10, _⟩ => ⟨S1x1, .f32⟩
  | .hbm, ⟨11, _⟩ => ⟨S16384x2048, .f32⟩
  | .hbm, ⟨12, _⟩ => ⟨S4x4096x2048, .f32⟩
  | .local _ .vmem, ⟨0, _⟩ => ⟨S128x2048, .f32⟩
  | .local _ .vmem, ⟨1, _⟩ => ⟨S128x2048, .f32⟩
  | .local _ .vmem, ⟨2, _⟩ => ⟨S2048x2048, .f32⟩
  | .local _ .vmem, ⟨3, _⟩ => ⟨S2048x1, .f32⟩
  | .local _ .vmem, ⟨4, _⟩ => ⟨S1x2048, .f32⟩
  | .local _ .vmem, ⟨5, _⟩ => ⟨S1x1, .f32⟩
  | .local _ .vmem, ⟨6, _⟩ => ⟨S1x1, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | .local _ .vmem, ⟨10, _⟩ => ⟨S2048x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32_17 : BitVec 32 := 0#32
  let c0_i32 : BitVec 32 := 0#32
  let c1_i32 : BitVec 32 := 1#32
  let arg10 : BitVec 32 := Scf.iv c0_i32 c1_i32 k0_t1
  let c1_i32_16 : BitVec 32 := 1#32
  let v30 : BitVec 32 := Scalar.muli arg10 c1_i32_16
  let v31 : BitVec 32 := Scalar.addi c0_i32_17 v30
  let c256_i32 : BitVec 32 := 256#32
  let v32 : BitVec 32 := Scalar.muli v31 c256_i32
  v32
def k0_off1 (k0_t1 : Fin k0_t1_loop.trips) : Fin 2 → Nat :=
  let c0_i32_17 : BitVec 32 := 0#32
  let c0_i32 : BitVec 32 := 0#32
  let c1_i32 : BitVec 32 := 1#32
  let arg10 : BitVec 32 := Scf.iv c0_i32 c1_i32 k0_t1
  let c1_i32_16 : BitVec 32 := 1#32
  let v30 : BitVec 32 := Scalar.muli arg10 c1_i32_16
  let v31 : BitVec 32 := Scalar.addi c0_i32_17 v30
  let c256_i32 : BitVec 32 := 256#32
  let v32 : BitVec 32 := Scalar.muli v31 c256_i32
  let v33 : BitVec 32 := v32
  let v34 : Index := Scalar.indexCast v33
  let c0_18 : Index := 0#32
  ![v34.toNat, 0]
def k0_off2 (k0_t1 : Fin k0_t1_loop.trips) : Fin 2 → Nat :=
  let c0_i32_17 : BitVec 32 := 0#32
  let c0_i32 : BitVec 32 := 0#32
  let c1_i32 : BitVec 32 := 1#32
  let arg10 : BitVec 32 := Scf.iv c0_i32 c1_i32 k0_t1
  let c1_i32_16 : BitVec 32 := 1#32
  let v30 : BitVec 32 := Scalar.muli arg10 c1_i32_16
  let v31 : BitVec 32 := Scalar.addi c0_i32_17 v30
  let c256_i32 : BitVec 32 := 256#32
  let v32 : BitVec 32 := Scalar.muli v31 c256_i32
  let v33 : BitVec 32 := v32
  let v36 : Index := Scalar.indexCast v33
  let c0_19 : Index := 0#32
  ![v36.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x2048_S16384x2048 : S4x4096x2048.ShapeCasts S16384x2048
  shapeCasts_S2048x1_S1x2048 : S2048x1.ShapeCasts S1x2048
  shapeCasts_S2048_S1x2048 : S2048.ShapeCasts S1x2048
  shapeCasts_S1_S1x1 : S1.ShapeCasts S1x1
  h_S256x2048 : 0 < S256x2048.numel
  h_S256x1 : 0 < S256x1.numel
  broadcasts_S256x1_S256x2048 : S256x1.Broadcasts S256x2048
  bitsLt_bf16_f32 : FTy.bits .bf16 < FTy.bits .f32
  shapeCasts_S256x2048_S256x2048 : S256x2048.ShapeCasts S256x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  shapeCasts_S16384x2048_S4x4096x2048 : S16384x2048.ShapeCasts S4x4096x2048
  dot_S128x2048_S2048x2048_S128x2048_1_1_0_0_n_n_wf : DotDims.WF S128x2048 S2048x2048 S128x2048 [1] [1] [0] [0] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x2048.size a ≤ S2048x2048.size a
  k0_off2_inb : ∀ k0_t1 : Fin k0_t1_loop.trips, ∀ a, (k0_off2 k0_t1) a + S256x1.size a ≤ S2048x1.size a
  k0_off1_packedbf16 : ∀ k0_t1 : Fin k0_t1_loop.trips, (Rect.unit (s := S2048x2048) (k0_off1 k0_t1) S256x2048.size (k0_off1_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .f32 = 32 ∨ (Rect.block (s := S16384x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2048x1.size a
  hwx0_2 : ∀ i : grid0.Coords, EltTy.bits .f32 = 32 ∨ (Rect.block (s := S2048x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S16384x2048.size a
  hwx0_7 : ∀ i : grid0.Coords, EltTy.bits .f32 = 32 ∨ (Rect.block (s := S16384x2048) S128x2048.size (cc0_transform_7 i) (hinb0_7 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S128x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048x1 : Shape := ⟨2, ![2048, 1]⟩
abbrev S1 : Shape := ⟨1, ![1]⟩
abbrev S2048 : Shape := ⟨1, ![2048]⟩
abbrev S1x1x1 : Shape := ⟨3, ![1, 1, 1]⟩
abbrev S_ : Shape := ⟨0, ![]⟩
abbrev S1x1x2048 : Shape := ⟨3, ![1, 1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x1, .f32⟩
  | .hbm, ⟨3, _⟩ => ⟨S1, .f32⟩
  | .hbm, ⟨4, _⟩ => ⟨S1, .f32⟩
  | .hbm, ⟨5, _⟩ => ⟨S2048, .f32⟩
  | .hbm, ⟨6, _⟩ => ⟨S1x1x1, .f32⟩
  | .hbm, ⟨7, _⟩ => ⟨S4x4096x2048, .f32⟩
  | .hbm, ⟨8, _⟩ => ⟨S4x4096x2048, .f32⟩
  | .hbm, ⟨9, _⟩ => ⟨S1x1x1, .f32⟩
  | .hbm, ⟨10, _⟩ => ⟨S4x4096x2048, .f32⟩
  | .hbm, ⟨11, _⟩ => ⟨S4x4096x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x4096x2048, .f32⟩
  | .hbm, ⟨16, _⟩ => ⟨S4x4096x2048, .f32⟩
  | .hbm, ⟨17, _⟩ => ⟨S_, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S4x4096x2048, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S1x1x2048, .f32⟩
  | .hbm, ⟨37, _⟩ => ⟨S4x4096x2048, .f32⟩
  | .hbm, ⟨38, _⟩ => ⟨S4x4096x2048, .f32⟩
  | .hbm, ⟨39, _⟩ => ⟨S1x1x2048, .f32⟩
  | .hbm, ⟨40, _⟩ => ⟨S4x4096x2048, .f32⟩
  | .hbm, ⟨41, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_cst_2 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S1x1x1_S4x4096x2048_0_1_2 : S1x1x1.BroadcastsInDim S4x4096x2048 (![0, 1, 2] : Fin 3 → Fin S4x4096x2048.rank)
  bcast_S_S4x4096x2048 : S_.BroadcastsInDim S4x4096x2048 (![] : Fin 0 → Fin S4x4096x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  shapeCasts_S2048x1_S2048 : S2048x1.ShapeCasts S2048
  bcast_S1_S2048_0 : S1.BroadcastsInDim S2048 (![0] : Fin 1 → Fin S2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.Spec.lean ====
/-
  The function both programs compute, on the extended reals.

  Activations and weights are "fake-quantised": a value is divided by its scale, clamped to [-127, 127] and rounded
  to the nearest integer (ties to even). With x an activation row of 2048 entries, zp its zero point and sa its scale,
  and w a weight row with its own scale sw, the output entry is

      (∑ i, q ((x i − zp) / sa) · q (w i / sw)) · (sa · sw) + b

  where q clamps and rounds. Both programs evaluate exactly this expression, in this order of operations; the only
  freedom either takes is the order of the 2048 summands, which a finite sum does not see. So no property of the
  inputs (finiteness, non-zero scales) is used anywhere.
-/
import Idealize.ShloMosaic.PureOps.Ideal.Laws
import Idealize.ShloMosaic.Lib.ValueIdx

noncomputable section

open scoped BigOperators

namespace Cert.FakeQuant

open Idealize.ShloMosaic Idealize.ShloMosaic.ValueIdx

/-- Clamp to [-127, 127] (the lower bound applied first), then round to nearest, ties to even. -/
def q (v : EReal) : EReal :=
  Ideal.liftRound Ideal.roundHalfEven
    (min (Ideal.ofBits .f32 0x42FE0000#32) (max (Ideal.ofBits .f32 0xC2FE0000#32) v))

/-- A quantised activation: shifted by the zero point, divided by the scale, clamped and rounded. -/
def qa (x zp sa : EReal) : EReal := q (Ideal.div (x - zp) sa)

/-- A quantised weight: divided by its row's scale, clamped and rounded. -/
def qw (w sw : EReal) : EReal := q (Ideal.div w sw)

/-- One output entry from an activation row, a weight row, the activation's scale and zero point, the weight row's
    scale and the bias entry. -/
def entry (x w : Fin 2048 → EReal) (sa zp sw b : EReal) : EReal :=
  (∑ i : Fin 2048, qa (x i) zp sa * qw (w i) sw) * (sa * sw) + b

/-- The whole result, over the activations as a matrix of 16384 rows. -/
def out2 (x : (⟨2, ![16384, 2048]⟩ : Shape).Idx → EReal) (w : (⟨2, ![2048, 2048]⟩ : Shape).Idx → EReal)
    (sw : (⟨2, ![2048, 1]⟩ : Shape).Idx → EReal) (sa zp : (⟨1, ![1]⟩ : Shape).Idx → EReal)
    (b : (⟨1, ![2048]⟩ : Shape).Idx → EReal) : (⟨2, ![16384, 2048]⟩ : Shape).Idx → EReal :=
  fun j => entry (fun i => x (ix2 (j 0) i)) (fun i => w (ix2 (j 1) i)) (sa (ix1 0)) (zp (ix1 0))
    (sw (ix2 (j 1) 0)) (b (ix1 (j 1)))

/-- The whole result, over the activations as [4, 4096, 2048]. -/
def out3 (x : (⟨3, ![4, 4096, 2048]⟩ : Shape).Idx → EReal) (w : (⟨2, ![2048, 2048]⟩ : Shape).Idx → EReal)
    (sw : (⟨2, ![2048, 1]⟩ : Shape).Idx → EReal) (sa zp : (⟨1, ![1]⟩ : Shape).Idx → EReal)
    (b : (⟨1, ![2048]⟩ : Shape).Idx → EReal) : (⟨3, ![4, 4096, 2048]⟩ : Shape).Idx → EReal :=
  fun j => entry (fun i => x (ix3 (j 0) (j 1) i)) (fun i => w (ix2 (j 2) i)) (sa (ix1 0)) (zp (ix1 0))
    (sw (ix2 (j 2) 0)) (b (ix1 (j 2)))

end Cert.FakeQuant

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelIdealBody.lean ====
/-
  What one call of the kernel body leaves in the output block, on the extended reals.

  The body first fills the scratch buffer with the quantised weights, eight blocks of 256 rows at a time: block k
  holds, at (p, c), the weight at row 256·k + p divided by that row's scale, clamped and rounded. The eight blocks
  tile the buffer, so whatever the buffer held before, it then holds ONE function of the weight matrix and the scale
  column: entry (o, i) is the quantised weight q (w(o, i) / sw(o)). The body then quantises its 128 activation rows,
  multiplies them with the whole scratch buffer contracting the shared axis, scales column o by sa · sw(o) and adds the
  bias: entry (r, o) of the output block is the specified entry of activation row r and weight row o.
-/
import proofs.«160613_j81681688035506_1_alg».proof.Proof.KernelIdealFrame
import proofs.«160613_j81681688035506_1_alg».proof.Proof.Spec
import proofs.«160613_j81681688035506_1_alg».proof.Proof.LibGram
import proofs.«160613_j81681688035506_1_alg».proof.Proof.LibColumn
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.BodyValue

open Cert.KernelIdeal Cert.KernelIdeal.Gen Cert.KernelIdeal.GenP Idealize.ShloMosaic Idealize.ShloMosaic.ValueIdx Cert.FakeQuant
open Idealize.ShloMosaic.TcCoe

/-- The quantised weights as one function of the weight matrix and the column of row scales. -/
def Wq (w : Vec Ideal S2048x2048 .f32) (sw : Vec Ideal S2048x1 .f32) : Vec Ideal S2048x2048 .bf16 :=
  fun y => qw (w (ix2 (y 0) (y 1))) (sw (ix2 (y 0) 0))

/-- One block of the loop's payload at (p, c): the block's weight there over the block's scale of row p, quantised. -/
theorem pay1_apply (v35 : Vec Ideal S256x2048 .f32) (v37 : Vec Ideal S256x1 .f32) (p : Fin 256) (c : Fin 2048) :
    k0_pay1 (F := Ideal) v35 v37 (ix2 p c) = qw (v35 (ix2 p c)) (v37 (ix2 p 0)) := by
  unfold k0_pay1
  refine (congrFun (shapeCast_self _ _) _).trans ?_
  exact congrArg (fun t => q (Ideal.div (v35 (ix2 p c)) t)) (broadcastTo_a1_ab_apply v37 broadcasts_S256x1_S256x2048 p c)

section Loop

variable {F : FTy → Type} [FloatOps F]

/-- What trip k of the loop stores: one block of 256 rows at the trip's row offset, the payload of the weight block
    and the scale block loaded at that offset. -/
theorem trip_pieces (𝒱 : Variants) (bd : Option 𝒱.V) (c : Dev nD) (i : grid0.Coords) (arg1 : Memref sig .tc .vmem S128x2048 .f32) (harg1 : arg1.IsWhole) (arg2 : Memref sig .tc .vmem S2048x2048 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S2048x2048 .bf16) (harg9 : arg9.IsWhole)
    (X_arg2 : BufTy.Contents (Elt F) arg2.view.ty) (X_arg3 : BufTy.Contents (Elt F) arg3.view.ty) (k : Fin k0_t1_loop.trips) :
    tripL_k0_t1 (F := F) 𝒱 c bd i arg1 harg1 arg2 harg2 arg3 harg3 arg4 harg4 arg5 harg5 arg6 harg6 arg7 harg7 arg8 harg8 arg9 harg9 X_arg2 X_arg3 k
      = [⟨Rect.unit (s := S2048x2048) (k0_off1 k) S256x2048.size (k0_off1_inb k),
          k0_pay1 (View.readAt (Elt F) arg2.view (Rect.unit (s := S2048x2048) (k0_off1 k) S256x2048.size (k0_off1_inb k)).toLoadRect X_arg2)
            (View.readAt (Elt F) arg3.view (Rect.unit (s := S2048x1) (k0_off2 k) S256x1.size (k0_off2_inb k)).toLoadRect X_arg3)⟩] := by
  unfold tripL_k0_t1 trip_k0_t1
  rfl

end Loop

/-- Block k's payload is the block of the quantised weights at rows 256·k … 256·k + 255. -/
theorem trip_block (arg2 : Memref sig .tc .vmem S2048x2048 .f32) (arg3 : Memref sig .tc .vmem S2048x1 .f32)
    (X_arg2 : BufTy.Contents (Elt Ideal) arg2.view.ty) (X_arg3 : BufTy.Contents (Elt Ideal) arg3.view.ty)
    (k : Fin k0_t1_loop.trips) (x : (Rect.unit (s := S2048x2048) (k0_off1 k) S256x2048.size (k0_off1_inb k)).shape.Idx) :
    k0_pay1 (F := Ideal) (View.readAt (Elt Ideal) arg2.view (Rect.unit (s := S2048x2048) (k0_off1 k) S256x2048.size (k0_off1_inb k)).toLoadRect X_arg2)
        (View.readAt (Elt Ideal) arg3.view (Rect.unit (s := S2048x1) (k0_off2 k) S256x1.size (k0_off2_inb k)).toLoadRect X_arg3) x
      = Wq (arg2.view.read (Elt Ideal) X_arg2) (arg3.view.read (Elt Ideal) X_arg3)
          ((Rect.unit (s := S2048x2048) (k0_off1 k) S256x2048.size (k0_off1_inb k)).emb x) := by
  obtain ⟨p, c, rfl⟩ : ∃ (p : Fin 256) (c : Fin 2048), x = ix2 p c := ⟨x 0, x 1, eq_ix2 x⟩
  refine (pay1_apply _ _ p c).trans ?_
  unfold Wq
  rw [View.readAt_apply, View.readAt_apply]
  have e1 : (Rect.unit (s := S2048x2048) (k0_off1 k) S256x2048.size (k0_off1_inb k)).toLoadRect.idx (ix2 p c)
      = ix2 ((Rect.unit (s := S2048x2048) (k0_off1 k) S256x2048.size (k0_off1_inb k)).emb (ix2 p c) 0)
          ((Rect.unit (s := S2048x2048) (k0_off1 k) S256x2048.size (k0_off1_inb k)).emb (ix2 p c) 1) := eq_ix2 _
  have e2 : (Rect.unit (s := S2048x1) (k0_off2 k) S256x1.size (k0_off2_inb k)).toLoadRect.idx (ix2 p 0)
      = ix2 ((Rect.unit (s := S2048x2048) (k0_off1 k) S256x2048.size (k0_off1_inb k)).emb (ix2 p c) 0) 0 :=
    funext fun a => Fin.ext (by
      match a with
      | ⟨0, _⟩ =>
        show k0_off2 k 0 + 1 * p.val = k0_off1 k 0 + 1 * p.val
        rw [k0_off1_eq, k0_off2_eq]
      | ⟨1, _⟩ =>
        show k0_off2 k 1 + 1 * 0 = 0
        rw [k0_off2_eq]; rfl)
  rw [e1, e2]
  rfl

/-- Every store the loop has made after n trips is a block of the quantised weights. -/
theorem pb_pieces (c : Dev nD) (i : grid0.Coords) (arg1 : Memref sig .tc .vmem S128x2048 .f32) (harg1 : arg1.IsWhole) (arg2 : Memref sig .tc .vmem S2048x2048 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S2048x2048 .bf16) (harg9 : arg9.IsWhole)
    (X_arg2 : BufTy.Contents (Elt Ideal) arg2.view.ty) (X_arg3 : BufTy.Contents (Elt Ideal) arg3.view.ty) :
    ∀ (n : ℕ), ∀ pc ∈ pb_k0_t1 (F := Ideal) Variants.none c none i arg1 harg1 arg2 harg2 arg3 harg3 arg4 harg4 arg5 harg5 arg6 harg6 arg7 harg7 arg8 harg8 arg9 harg9 X_arg2 X_arg3 n,
      ∀ x : pc.1.shape.Idx, pc.2 x = Wq (arg2.view.read (Elt Ideal) X_arg2) (arg3.view.read (Elt Ideal) X_arg3) (pc.1.emb x)
  | 0 => fun pc hp => by rw [pb_k0_t1.eq_1] at hp; exact absurd hp List.not_mem_nil
  | n + 1 => fun pc hp x => by
    rw [pb_k0_t1.eq_2] at hp
    unfold pb_k0_t1Step at hp
    split at hp
    · rename_i h
      rcases List.mem_append.mp hp with hp | hp
      · rw [trip_pieces, List.mem_singleton] at hp
        subst hp
        exact trip_block arg2 arg3 X_arg2 X_arg3 ⟨n, h⟩ x
      · exact pb_pieces c i arg1 harg1 arg2 harg2 arg3 harg3 arg4 harg4 arg5 harg5 arg6 harg6 arg7 harg7 arg8 harg8 arg9 harg9 X_arg2 X_arg3 n pc hp x
    · exact pb_pieces c i arg1 harg1 arg2 harg2 arg3 harg3 arg4 harg4 arg5 harg5 arg6 harg6 arg7 harg7 arg8 harg8 arg9 harg9 X_arg2 X_arg3 n pc hp x

/-- After the loop the scratch buffer, loaded whole, reads the quantised weights — whatever it held before. -/
theorem scratch_eq (c : Dev nD) (i : grid0.Coords) (arg1 : Memref sig .tc .vmem S128x2048 .f32) (harg1 : arg1.IsWhole) (arg2 : Memref sig .tc .vmem S2048x2048 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S2048x2048 .bf16) (harg9 : arg9.IsWhole)
    (X_arg2 : BufTy.Contents (Elt Ideal) arg2.view.ty) (X_arg3 : BufTy.Contents (Elt Ideal) arg3.view.ty) :
    arg9.view.readCov (pb_k0_t1 (F := Ideal) Variants.none c none i arg1 harg1 arg2 harg2 arg3 harg3 arg4 harg4 arg5 harg5 arg6 harg6 arg7 harg7 arg8 harg8 arg9 harg9 X_arg2 X_arg3 (Scf.trips k0_t1_loop.lb k0_t1_loop.ub k0_t1_loop.st))
        (Rect.unit (s := S2048x2048) ![0, 0] S2048x2048.size inb_S2048x2048_S2048x2048_0_0).toLoadRect
      = Wq (arg2.view.read (Elt Ideal) X_arg2) (arg3.view.read (Elt Ideal) X_arg3) := by
  rw [View.readCov_eq_canon']
  funext j
  have hz : (![0, 0] : Fin S2048x2048.rank → ℕ) = fun _ => 0 := funext fun a => by match a with | ⟨0, _⟩ => rfl | ⟨1, _⟩ => rfl
  have hj : (Rect.unit (s := S2048x2048) ![0, 0] S2048x2048.size inb_S2048x2048_S2048x2048_0_0).toLoadRect.idx j = j :=
    funext fun a => Fin.ext (by
      match a with
      | ⟨0, _⟩ => show 0 + 1 * (j 0).val = (j 0).val; omega
      | ⟨1, _⟩ => show 0 + 1 * (j 1).val = (j 1).val; omega)
  rw [hj]
  exact View.canon_apply_of_pieces _ _ (pb_pieces c i arg1 harg1 arg2 harg2 arg3 harg3 arg4 harg4 arg5 harg5 arg6 harg6 arg7 harg7 arg8 harg8 arg9 harg9 X_arg2 X_arg3 _) j
    (scratch_cover0 c i arg1 harg1 arg2 harg2 arg3 harg3 arg4 harg4 arg5 harg5 arg6 harg6 arg7 harg7 arg8 harg8 arg9 harg9 X_arg2 X_arg3 j)

/-! ## The output block -/

/-- The scalar a 1×1 block holds, read by position. -/
theorem extract_11 (v : Vec Ideal S1x1 .f32) : extractAt ![0, 0] v inpos_S1x1_p0_0 = v (ix2 0 0) :=
  congrArg v (funext fun a => Fin.ext (by match a with | ⟨0, _⟩ => rfl | ⟨1, _⟩ => rfl))

theorem dot_lhs0 (j : S128x2048.Idx) (qi : dot_S128x2048_S2048x2048_S128x2048_1_1_0_0_n_n.contr.Idx) :
    (dot_S128x2048_S2048x2048_S128x2048_1_1_0_0_n_n.lhsIdx j qi 0).val = (j 0).val := by
  unfold DotDims.lhsIdx
  rw [dif_neg (show ¬(0 : Fin S128x2048.rank) ∈ dot_S128x2048_S2048x2048_S128x2048_1_1_0_0_n_n.lhsBatch by decide),
    dif_pos (show (0 : Fin S128x2048.rank) ∈ dot_S128x2048_S2048x2048_S128x2048_1_1_0_0_n_n.lhsNonContracting by decide)]
  rfl

theorem dot_rhs0 (j : S128x2048.Idx) (qi : dot_S128x2048_S2048x2048_S128x2048_1_1_0_0_n_n.contr.Idx) :
    (dot_S128x2048_S2048x2048_S128x2048_1_1_0_0_n_n.rhsIdx j qi 0).val = (j 1).val := by
  unfold DotDims.rhsIdx
  rw [dif_neg (show ¬(0 : Fin S2048x2048.rank) ∈ dot_S128x2048_S2048x2048_S128x2048_1_1_0_0_n_n.rhsBatch by decide),
    dif_pos (show (0 : Fin S2048x2048.rank) ∈ dot_S128x2048_S2048x2048_S128x2048_1_1_0_0_n_n.rhsNonContracting by decide)]
  rfl

/-- The product of a 128-row block with all 2048 rows of the second operand, contracting the shared last axis, into
    the zero accumulator: entry (r, o) is the sum over i of the products. -/
theorem matmul_apply (l : FVec Ideal S128x2048 .bf16) (w : FVec Ideal S2048x2048 .bf16) (r : Fin 128) (o : Fin 2048) :
    matmul dot_S128x2048_S2048x2048_S128x2048_1_1_0_0_n_n none l w (constant S128x2048 .f32 0x00000000#32) (ix2 r o)
      = ∑ k : Fin 2048, l (ix2 r k) * w (ix2 o k) :=
  (Ideal.matmul_constant_zero_apply dot_S128x2048_S2048x2048_S128x2048_1_1_0_0_n_n none l w (ix2 r o)).trans
    (Gram.sum_contr_last dot_S128x2048_S2048x2048_S128x2048_1_1_0_0_n_n rfl rfl rfl rfl dot_lhs0 dot_rhs0 l w (ix2 r o))

/-- The body's stored value at (r, o): the specified entry of activation row r of the block against row o of the
    second matmul operand, with the scale and the bias read from their one-row blocks. -/
theorem pay2_apply (v1 v3 : Vec Ideal S1x1 .f32) (v5 : Vec Ideal S128x2048 .f32) (v17 : Vec Ideal S2048x2048 .bf16)
    (v19 v25 : Vec Ideal S1x2048 .f32) (r : Fin 128) (o : Fin 2048) :
    k0_pay2 (F := Ideal) v1 v3 v5 v17 v19 v25 (ix2 r o)
      = (∑ k : Fin 2048, qa (v5 (ix2 r k)) (v3 (ix2 0 0)) (v1 (ix2 0 0)) * v17 (ix2 o k)) * (v1 (ix2 0 0) * v19 (ix2 0 o))
        + v25 (ix2 0 o) := by
  unfold k0_pay2
  simp only [shapeCast_self]
  show (_ : EReal) * _ + _ = _
  refine congrArg₂ (· + ·) (congrArg₂ (· * ·) ?_ ?_) ?_
  · refine (matmul_apply _ _ r o).trans (Finset.sum_congr rfl fun k _ => ?_)
    refine congrArg (· * v17 (ix2 o k)) ?_
    show q (Ideal.div (v5 (ix2 r k) - extractAt ![0, 0] v3 inpos_S1x1_p0_0) (extractAt ![0, 0] v1 inpos_S1x1_p0_0)) = _
    rw [extract_11 v1, extract_11 v3]
    rfl
  · refine (broadcastTo_1b_ab_apply _ _ r o).trans ?_
    show extractAt ![0, 0] v1 inpos_S1x1_p0_0 * v19 (ix2 0 o) = _
    rw [extract_11 v1]
  · exact broadcastTo_1b_ab_apply _ _ r o

/-- A load of a whole staging buffer reads the block it holds. -/
theorem load_whole {S : Shape} {e : EltTy} (M : Memref sig .tc .vmem S e) (h : M.IsWhole) (x : Vec Ideal S e)
    {off : Fin S.rank → ℕ} (inb : ∀ a, off a + S.size a ≤ S.size a) (hz : off = fun _ => 0) :
    View.readAt (Elt Ideal) M.view (Rect.unit off S.size inb).toLoadRect (h.unread x) = x := by
  rw [View.readAt_eq_ld, h.read_unread, View.ld_unit_zero hz]

/-- THE OUTPUT BLOCK one call of the body leaves, from the blocks it was given: at (r, o) the specified entry of the
    block's activation row r against weight row o. The scratch buffer's earlier contents do not enter. -/
theorem out_block (c : Dev nD) (i : grid0.Coords) (arg1 : Memref sig .tc .vmem S128x2048 .f32) (harg1 : arg1.IsWhole) (arg2 : Memref sig .tc .vmem S2048x2048 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2048 .f32) (harg7 : arg7.IsWhole) (arg8 : Memref sig .tc .vmem S128x2048 .f32) (harg8 : arg8.IsWhole) (arg9 : Memref sig .tc .vmem S2048x2048 .bf16) (harg9 : arg9.IsWhole)
    (x0 : Vec Ideal S128x2048 .f32) (x1 : Vec Ideal S2048x2048 .f32) (x2 : Vec Ideal S2048x1 .f32) (x3 : Vec Ideal S1x2048 .f32)
    (x4 x5 : Vec Ideal S1x1 .f32) (x6 : Vec Ideal S1x2048 .f32) :
    out0_A_7 (F := Ideal) c i arg1 harg1 arg2 harg2 arg3 harg3 arg4 harg4 arg5 harg5 arg6 harg6 arg7 harg7 arg8 harg8 arg9 harg9 x0 x1 x2 x3 x4 x5 x6 = k0_pay2 (F := Ideal) x4 x5 x0 (Wq x1 x2) x3 x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  have hz : (![0, 0] : Fin 2 → ℕ) = fun _ => 0 := funext fun a => by match a with | ⟨0, _⟩ => rfl | ⟨1, _⟩ => rfl
  show View.canon [⟨Rect.unit (s := S128x2048) ![0, 0] S128x2048.size inb_S128x2048_S128x2048_0_0, _⟩] = _
  rw [View.canon_unit_zero hz]
  rw [load_whole arg5 harg5 x4 _ hz, load_whole arg6 harg6 x5 _ hz, load_whole arg1 harg1 x0 _ hz,
    load_whole arg4 harg4 x3 _ hz, load_whole arg7 harg7 x6 _ hz, scratch_eq, harg2.read_unread, harg3.read_unread]

end Cert.KernelIdeal.BodyValue

end
-- ==== Proof.LibRegroup.lean ====
/-
  A row-major array regrouped without moving an element: adjacent axes merged into one, one axis split into
  two, a trailing unit axis added, and a trailing unit axis broadcast along a new extent. Each lemma reads the
  regrouped array at an index written by coordinates and names the operand's index by coordinates, the relation
  between them being the arithmetic of the row-major position: an axis of extent `g * l` is the pair
  `(u, v)`, `u < g`, `v < l`, at position `u * l + v`.
-/
import Idealize.ShloMosaic.Lib.Pipeline.Value
import Idealize.ShloMosaic.Lib.ValueIdx

namespace Idealize.ShloMosaic.Regroup

open Idealize.ShloMosaic Idealize.ShloMosaic.ValueIdx

variable {α : Type}

/-- The last axis of a matrix split in two: `[a, n] → [a, g, l]` with `n = g * l` reads, at `(q, u, v)`, the
    operand at `(q, u * l + v)`. -/
theorem shapeCast_splitLast_apply {a n g l : ℕ} (hn : n = g * l) (x : (⟨2, ![a, n]⟩ : Shape).Idx → α)
    (h : (⟨2, ![a, n]⟩ : Shape).ShapeCasts ⟨3, ![a, g, l]⟩) (q : Fin a) (u : Fin g) (v : Fin l) (k : Fin n)
    (hk : k.val = u.val * l + v.val) :
    shapeCast ⟨3, ![a, g, l]⟩ x h (ix3 q u v) = x (ix2 q k) :=
  shapeCast_apply x h _ _ (by
    rw [Shape.rowMajor_val_two, Shape.rowMajor_val_three]
    show q.val * n + k.val = (q.val * g + u.val) * l + v.val
    rw [hk, hn]; ring)

/-- The last two axes of a rank-3 array merged: `[a, g, l] → [a, n]` with `n = g * l` reads, at `(q, k)` with
    `k = u * l + v`, the operand at `(q, u, v)`. -/
theorem shapeCast_mergeLast_apply {a n g l : ℕ} (hn : n = g * l) (x : (⟨3, ![a, g, l]⟩ : Shape).Idx → α)
    (h : (⟨3, ![a, g, l]⟩ : Shape).ShapeCasts ⟨2, ![a, n]⟩) (q : Fin a) (k : Fin n) (u : Fin g) (v : Fin l)
    (hk : k.val = u.val * l + v.val) :
    shapeCast ⟨2, ![a, n]⟩ x h (ix2 q k) = x (ix3 q u v) :=
  shapeCast_apply x h _ _ (by
    rw [Shape.rowMajor_val_two, Shape.rowMajor_val_three]
    show (q.val * g + u.val) * l + v.val = q.val * n + k.val
    rw [hk, hn]; ring)

/-- The first two axes of a rank-3 array merged: `[b, s, n] → [r, n]` with `r = b * s` reads, at `(p, k)` with
    `p = i * s + j`, the operand at `(i, j, k)`. -/
theorem shapeCast_mergeFirst_apply {b s n r : ℕ} (x : (⟨3, ![b, s, n]⟩ : Shape).Idx → α)
    (h : (⟨3, ![b, s, n]⟩ : Shape).ShapeCasts ⟨2, ![r, n]⟩) (p : Fin r) (k : Fin n) (i : Fin b) (j : Fin s)
    (hp : p.val = i.val * s + j.val) :
    shapeCast ⟨2, ![r, n]⟩ x h (ix2 p k) = x (ix3 i j k) :=
  shapeCast_apply x h _ _ (by
    rw [Shape.rowMajor_val_two, Shape.rowMajor_val_three]
    show (i.val * s + j.val) * n + k.val = p.val * n + k.val
    rw [hp])

/-- The first axis of a matrix split in two: `[r, n] → [b, s, n]` with `r = b * s` reads, at `(i, j, k)`, the
    operand at `(i * s + j, k)`. -/
theorem shapeCast_splitFirst_apply {b s n r : ℕ} (x : (⟨2, ![r, n]⟩ : Shape).Idx → α)
    (h : (⟨2, ![r, n]⟩ : Shape).ShapeCasts ⟨3, ![b, s, n]⟩) (i : Fin b) (j : Fin s) (k : Fin n) (p : Fin r)
    (hp : p.val = i.val * s + j.val) :
    shapeCast ⟨3, ![b, s, n]⟩ x h (ix3 i j k) = x (ix2 p k) :=
  shapeCast_apply x h _ _ (by
    rw [Shape.rowMajor_val_two, Shape.rowMajor_val_three]
    show p.val * n + k.val = (i.val * s + j.val) * n + k.val
    rw [hp])

/-- A vector cut into rows: `[n] → [a, g]` reads, at `(o, u)`, the operand at `o * g + u`. -/
theorem shapeCast_rows_apply {n a g : ℕ} (x : (⟨1, ![n]⟩ : Shape).Idx → α)
    (h : (⟨1, ![n]⟩ : Shape).ShapeCasts ⟨2, ![a, g]⟩) (o : Fin a) (u : Fin g) (k : Fin n)
    (hk : k.val = o.val * g + u.val) :
    shapeCast ⟨2, ![a, g]⟩ x h (ix2 o u) = x (ix1 k) :=
  shapeCast_apply x h _ _ (by
    rw [Shape.rowMajor_val_two, Shape.rowMajor_val_one]
    show k.val = o.val * g + u.val
    exact hk)

/-- A trailing unit axis added to a matrix: `[a, g] → [a, g, 1]` reads, at `(q, u, w)`, the operand at `(q, u)`. -/
theorem shapeCast_trailingUnit_apply {a g : ℕ} (x : (⟨2, ![a, g]⟩ : Shape).Idx → α)
    (h : (⟨2, ![a, g]⟩ : Shape).ShapeCasts ⟨3, ![a, g, 1]⟩) (q : Fin a) (u : Fin g) (w : Fin 1) :
    shapeCast ⟨3, ![a, g, 1]⟩ x h (ix3 q u w) = x (ix2 q u) :=
  shapeCast_apply x h _ _ (by
    have hw : w.val = 0 := by omega
    rw [Shape.rowMajor_val_two, Shape.rowMajor_val_three]
    show q.val * g + u.val = (q.val * g + u.val) * 1 + w.val
    rw [hw, Nat.mul_one, Nat.add_zero])

/-- A trailing unit axis broadcast along a new extent: `[a, g, 1] → [a, g, l]` reads, at `(q, u, v)`, the
    operand's one entry `(q, u, 0)` of that column. -/
theorem broadcastTo_trailingUnit_apply {a g l : ℕ} (x : (⟨3, ![a, g, 1]⟩ : Shape).Idx → α)
    (h : (⟨3, ![a, g, 1]⟩ : Shape).Broadcasts ⟨3, ![a, g, l]⟩) (q : Fin a) (u : Fin g) (v : Fin l) :
    broadcastTo ⟨3, ![a, g, l]⟩ x h (ix3 q u v) = x (ix3 q u (0 : Fin 1)) := by
  refine broadcastTo_apply x h (ix3 q u v) (ix3 q u (0 : Fin 1)) fun ax => ?_
  match ax with
  | ⟨0, _⟩ =>
    show q.val = if a = 1 then 0 else q.val
    split
    · have := q.isLt; omega
    · rfl
  | ⟨1, _⟩ =>
    show u.val = if g = 1 then 0 else u.val
    split
    · have := u.isLt; omega
    · rfl
  | ⟨2, _⟩ => rfl

end Idealize.ShloMosaic.Regroup
-- ==== Proof.KernelIdealValue.lean ====
/-
  From the blocks to the whole result.

  Grid point t works on activation rows 128·t … 128·t + 127: its activation block is those rows of the activation
  matrix (the input reshaped to 16384 rows), the other six operands are whole arrays at every point, and its output
  block is the same rows of the output matrix. So what point t writes back is the block of ONE function of the seven
  arrays, the specified entry at every (row, column); the 128 blocks tile the output matrix, which therefore ends
  holding that function. The host reshapes before the call only regroup indices (the activations' two leading axes
  merged, the scale column read as a row, a leading unit axis put on the bias and on the two scalars), and the reshape
  after it splits the rows again: at (b, s, o) the result is the specified entry of activation row (b, s) and weight
  row o.
-/
import proofs.«160613_j81681688035506_1_alg».proof.Proof.KernelIdealBody
import proofs.«160613_j81681688035506_1_alg».proof.Proof.LibRegroup
import Idealize.ShloMosaic.Lib.StableHlo.Run

set_option maxRecDepth 16384

noncomputable section

open scoped BigOperators

namespace Cert.KernelIdeal.ArrayValue

open Cert.KernelIdeal Cert.KernelIdeal.Gen Cert.KernelIdeal.GenP Cert.KernelIdeal.BodyValue
open Idealize.ShloMosaic Idealize.ShloMosaic.ValueIdx Idealize.ShloMosaic.TcCoe Idealize.SL.Sem Cert.FakeQuant
open Idealize.ShloMosaic.Pipeline (Dat)

/-- The output matrix as one function of the seven arrays the call is given: the activation matrix, the weights, the
    scale column, the scale row, the 1×1 activation scale and zero point, the bias row. -/
def blockFn (X0 : Vec Ideal S16384x2048 .f32) (X1 : Vec Ideal S2048x2048 .f32) (X2 : Vec Ideal S2048x1 .f32)
    (X3 : Vec Ideal S1x2048 .f32) (X4 X5 : Vec Ideal S1x1 .f32) (X6 : Vec Ideal S1x2048 .f32) : Vec Ideal S16384x2048 .f32 :=
  fun j => (∑ k : Fin 2048, qa (X0 (ix2 (j 0) k)) (X5 (ix2 0 0)) (X4 (ix2 0 0)) * qw (X1 (ix2 (j 1) k)) (X2 (ix2 (j 1) 0)))
      * (X4 (ix2 0 0) * X3 (ix2 0 (j 1))) + X6 (ix2 0 (j 1))

/-- An entry of a point's output block is the entry of `blockFn` at the block's place `j` in the matrix, given that
    the point's blocks read the arrays at the matching places. -/
theorem entry_eq (X0 : Vec Ideal S16384x2048 .f32) (X1 : Vec Ideal S2048x2048 .f32) (X2 : Vec Ideal S2048x1 .f32)
    (X3 : Vec Ideal S1x2048 .f32) (X4 X5 : Vec Ideal S1x1 .f32) (X6 : Vec Ideal S1x2048 .f32)
    (b0 : Vec Ideal S128x2048 .f32) (b1 : Vec Ideal S2048x2048 .f32) (b2 : Vec Ideal S2048x1 .f32)
    (b3 : Vec Ideal S1x2048 .f32) (b4 b5 : Vec Ideal S1x1 .f32) (b6 : Vec Ideal S1x2048 .f32)
    (r : Fin 128) (o : Fin 2048) (j : S16384x2048.Idx)
    (h0 : ∀ k : Fin 2048, b0 (ix2 r k) = X0 (ix2 (j 0) k)) (h1 : ∀ k : Fin 2048, b1 (ix2 o k) = X1 (ix2 (j 1) k))
    (h2 : b2 (ix2 o 0) = X2 (ix2 (j 1) 0)) (h3 : b3 (ix2 0 o) = X3 (ix2 0 (j 1))) (h4 : b4 (ix2 0 0) = X4 (ix2 0 0))
    (h5 : b5 (ix2 0 0) = X5 (ix2 0 0)) (h6 : b6 (ix2 0 o) = X6 (ix2 0 (j 1))) :
    k0_pay2 (F := Ideal) b4 b5 b0 (Wq b1 b2) b3 b6 (ix2 r o) = blockFn X0 X1 X2 X3 X4 X5 X6 j := by
  rw [pay2_apply]
  unfold blockFn Wq
  simp only [h0, h1, h2, h3, h4, h5, h6]

variable (m : (ℓ : Loc nD τ sig) → Buf (Elt Ideal) ℓ) (ρ : Dev nD → PrngReg)

/-- The printed index maps over the grid: the activation and output blocks move with the point along the rows, every
    other block is the whole array. -/
theorem idx_facts : ∀ t : Fin cfg0.N, win0_0.index t (0 : Fin 2) = win0_7.index t (0 : Fin 2)
    ∧ win0_0.index t (1 : Fin 2) = 0 ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 127 :=
  (by decide +kernel : ∀ t : Fin grid0.N, _)

/-- Every block of rows is some point's. -/
theorem idx_onto : ∀ q0 : Fin 128, ∃ t : Fin cfg0.N, win0_7.index t = ![q0.val, 0] :=
  (by decide +kernel : ∀ q0 : Fin 128, ∃ t : Fin grid0.N, win0_7.index t = ![q0.val, 0])

/-- WHAT POINT t WRITES BACK is block t of `blockFn` of the arrays as the call finds them. -/
theorem flushed_eq (c : Dev nD) (t : Fin cfg0.N) :
    (dats m 0 c).flushed 7 t = ((cfg0.win 7).blk t).view.read (Elt Ideal)
      (blockFn (V m c main_v0) (V m c main_arg1) (V m c main_arg2) (V m c main_v1) (V m c main_v3) (V m c main_v4) (V m c main_v2)) := by
  show (cfg0.win 7).cut (grid0.coords t) ((dats m 0 c).after 7 t) = _
  rw [after0_7]
  unfold outsAt0
  rw [out_block]
  obtain ⟨e0, e1, e2, e3, e4, e5, e6, e7, e8, e9, e10, e11, e12, e13, e14, e15⟩ := idx_facts t
  funext y
  obtain ⟨r, o, rfl⟩ : ∃ (r : Fin 128) (o : Fin 2048), y = ix2 r o := ⟨y 0, y 1, eq_ix2 y⟩
  show k0_pay2 (F := Ideal) (iblk m c 4 t) (iblk m c 5 t) (iblk m c 0 t) (Wq (iblk m c 1 t) (iblk m c 2 t)) (iblk m c 3 t) (iblk m c 6 t) (ix2 r o)
    = blockFn (V m c main_v0) (V m c main_arg1) (V m c main_arg2) (V m c main_v1) (V m c main_v3) (V m c main_v4) (V m c main_v2)
        (((cfg0.win 7).blk t).view.emb (ix2 r o))
  refine entry_eq _ _ _ _ _ _ _ (iblk m c 0 t) (iblk m c 1 t) (iblk m c 2 t) (iblk m c 3 t) (iblk m c 4 t) (iblk m c 5 t) (iblk m c 6 t)
    r o (((cfg0.win 7).blk t).view.emb (ix2 r o)) ?_ ?_ ?_ ?_ ?_ ?_ ?_
  · intro k
    show V m c main_v0 (((cfg0.win 0).blk t).view.emb (ix2 r k)) = _
    refine congrArg (V m c main_v0) (funext fun a => Fin.ext ?_)
    match a with
    | ⟨0, _⟩ => show win0_0.index t (0 : Fin 2) * 128 + 1 * r.val = win0_7.index t (0 : Fin 2) * 128 + 1 * r.val; omega
    | ⟨1, _⟩ => show win0_0.index t (1 : Fin 2) * 2048 + 1 * k.val = k.val; omega
  · intro k
    show V m c main_arg1 (((cfg0.win 1).blk t).view.emb (ix2 o k)) = _
    refine congrArg (V m c main_arg1) (funext fun a => Fin.ext ?_)
    match a with
    | ⟨0, _⟩ => show win0_1.index t (0 : Fin 2) * 2048 + 1 * o.val = win0_7.index t (1 : Fin 2) * 2048 + 1 * o.val; omega
    | ⟨1, _⟩ => show win0_1.index t (1 : Fin 2) * 2048 + 1 * k.val = k.val; omega
  · show V m c main_arg2 (((cfg0.win 2).blk t).view.emb (ix2 o 0)) = _
    refine congrArg (V m c main_arg2) (funext fun a => Fin.ext ?_)
    match a with
    | ⟨0, _⟩ => show win0_2.index t (0 : Fin 2) * 2048 + 1 * o.val = win0_7.index t (1 : Fin 2) * 2048 + 1 * o.val; omega
    | ⟨1, _⟩ => show win0_2.index t (1 : Fin 2) * 1 + 1 * 0 = 0; omega
  · show V m c main_v1 (((cfg0.win 3).blk t).view.emb (ix2 0 o)) = _
    refine congrArg (V m c main_v1) (funext fun a => Fin.ext ?_)
    match a with
    | ⟨0, _⟩ => show win0_3.index t (0 : Fin 2) * 1 + 1 * 0 = 0; omega
    | ⟨1, _⟩ => show win0_3.index t (1 : Fin 2) * 2048 + 1 * o.val = win0_7.index t (1 : Fin 2) * 2048 + 1 * o.val; omega
  · show V m c main_v3 (((cfg0.win 4).blk t).view.emb (ix2 0 0)) = _
    refine congrArg (V m c main_v3) (funext fun a => Fin.ext ?_)
    match a with
    | ⟨0, _⟩ => show win0_4.index t (0 : Fin 2) * 1 + 1 * 0 = 0; omega
    | ⟨1, _⟩ => show win0_4.index t (1 : Fin 2) * 1 + 1 * 0 = 0; omega
  · show V m c main_v4 (((cfg0.win 5).blk t).view.emb (ix2 0 0)) = _
    refine congrArg (V m c main_v4) (funext fun a => Fin.ext ?_)
    match a with
    | ⟨0, _⟩ => show win0_5.index t (0 : Fin 2) * 1 + 1 * 0 = 0; omega
    | ⟨1, _⟩ => show win0_5.index t (1 : Fin 2) * 1 + 1 * 0 = 0; omega
  · show V m c main_v2 (((cfg0.win 6).blk t).view.emb (ix2 0 o)) = _
    refine congrArg (V m c main_v2) (funext fun a => Fin.ext ?_)
    match a with
    | ⟨0, _⟩ => show win0_6.index t (0 : Fin 2) * 1 + 1 * 0 = 0; omega
    | ⟨1, _⟩ => show win0_6.index t (1 : Fin 2) * 2048 + 1 * o.val = win0_7.index t (1 : Fin 2) * 2048 + 1 * o.val; omega

/-- An index of the output matrix is in point t's block iff each coordinate is in the block's range on its axis. -/
theorem mem_blk (t : Fin cfg0.N) (i : S16384x2048.Idx) :
    i ∈ ((cfg0.win 7).blk t).view.set ↔ ∀ a : Fin 2, win0_7.index t a * S128x2048.size a ≤ (i a).val ∧ (i a).val < win0_7.index t a * S128x2048.size a + S128x2048.size a := by
  show i ∈ ((View.whole main_v5).slice (win0_7.rect t)).set ↔ _
  rw [View.set_slice_whole, Rect.mem_set_unit]
  exact Iff.rfl

/-- The 128 blocks of rows tile the output matrix: every index is in the block of point ⌊row / 128⌋. -/
theorem cover (i : S16384x2048.Idx) : ∃ t : Fin cfg0.N, (cfg0.win 7).flush t = true ∧ i ∈ ((cfg0.win 7).blk t).view.set := by
  have hi0 : (i 0).val < 16384 := (i 0).isLt
  have hi1 : (i 1).val < 2048 := (i 1).isLt
  obtain ⟨t, ht⟩ := idx_onto ⟨(i 0).val / 128, by omega⟩
  have q0 : win0_7.index t (0 : Fin 2) = (i 0).val / 128 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 2048 ≤ (i 1).val ∧ (i 1).val < win0_7.index t (1 : Fin 2) * 2048 + 2048; omega

/-- THE OUTPUT MATRIX after the call. -/
theorem final (c : Dev nD) : (dats m 0 c).arrAt 7 cfg0.N
    = blockFn (V m c main_v0) (V m c main_arg1) (V m c main_arg2) (V m c main_v1) (V m c main_v3) (V m c main_v4) (V m c main_v2) :=
  (dats m 0 c).arrAt_eq_of_cover 7 _ (fun t _ => flushed_eq m c t) cover

/-! ## The arrays the call is given, and the reshape after it -/

theorem V_v0 (c : Dev nD) : (V m c main_v0 : S16384x2048.Idx → EReal)
    = shapeCast S16384x2048 (m ((c : Thread nD τ).loc main_arg0)) shapeCasts_S4x4096x2048_S16384x2048 := by
  show StableHlo.after hostOps0 (fun b => m (c, b)) (Proc.devRef .tc main_v0) = _
  after_results
  rfl

theorem V_v1 (c : Dev nD) : (V m c main_v1 : S1x2048.Idx → EReal)
    = shapeCast S1x2048 (m ((c : Thread nD τ).loc main_arg2)) shapeCasts_S2048x1_S1x2048 := by
  show StableHlo.after hostOps0 (fun b => m (c, b)) (Proc.devRef .tc main_v1) = _
  after_results
  rfl

theorem V_v2 (c : Dev nD) : (V m c main_v2 : S1x2048.Idx → EReal)
    = shapeCast S1x2048 (m ((c : Thread nD τ).loc main_arg5)) shapeCasts_S2048_S1x2048 := by
  show StableHlo.after hostOps0 (fun b => m (c, b)) (Proc.devRef .tc main_v2) = _
  after_results
  rfl

theorem V_v3 (c : Dev nD) : (V m c main_v3 : S1x1.Idx → EReal)
    = shapeCast S1x1 (m ((c : Thread nD τ).loc main_arg3)) shapeCasts_S1_S1x1 := by
  show StableHlo.after hostOps0 (fun b => m (c, b)) (Proc.devRef .tc main_v3) = _
  after_results
  rfl

theorem V_v4 (c : Dev nD) : (V m c main_v4 : S1x1.Idx → EReal)
    = shapeCast S1x1 (m ((c : Thread nD τ).loc main_arg4)) shapeCasts_S1_S1x1 := by
  show StableHlo.after hostOps0 (fun b => m (c, b)) (Proc.devRef .tc main_v4) = _
  after_results
  rfl

/-- The program's result: the output matrix with its rows split again into (b, s). -/
theorem tail_v6 (c : Dev nD) : Pipeline.afterTail₀ cfgs (dats m) 0 (V0 m) [hostOps1] c main_v6
    = shapeCast S4x4096x2048 ((dats m 0 c).arrAt 7 cfg0.N) shapeCasts_S16384x2048_S4x4096x2048 := by
  unfold Pipeline.afterTail₀
  show StableHlo.after hostOps1 _ (Proc.devRef .tc main_v6) = _
  after_results
  exact congrArg (fun X => shapeCast S4x4096x2048 X shapeCasts_S16384x2048_S4x4096x2048)
    (Pipeline.withArrays_arr spec0 launch0.win.arr_inj c (V0 m c) (fun w => (dats m 0 c).arrAt w cfg0.N) 7)

/-! ## The result, index by index -/

theorem blockFn_apply (X0 : Vec Ideal S16384x2048 .f32) (X1 : Vec Ideal S2048x2048 .f32) (X2 : Vec Ideal S2048x1 .f32)
    (X3 : Vec Ideal S1x2048 .f32) (X4 X5 : Vec Ideal S1x1 .f32) (X6 : Vec Ideal S1x2048 .f32) (p : Fin 16384) (o : Fin 2048) :
    blockFn X0 X1 X2 X3 X4 X5 X6 (ix2 p o)
      = (∑ k : Fin 2048, qa (X0 (ix2 p k)) (X5 (ix2 0 0)) (X4 (ix2 0 0)) * qw (X1 (ix2 o k)) (X2 (ix2 o 0)))
        * (X4 (ix2 0 0) * X3 (ix2 0 o)) + X6 (ix2 0 o) := rfl

/-- A column [n, 1] read as a row [1, n]: entry (0, o) is the column's entry (o, 0). -/
theorem column_as_row {α : Type} (x : S2048x1.Idx → α) (o : Fin 2048) :
    shapeCast S1x2048 x shapeCasts_S2048x1_S1x2048 (ix2 0 o) = x (ix2 o 0) :=
  shapeCast_apply x _ _ _ (by
    rw [Shape.rowMajor_val_two, Shape.rowMajor_val_two]
    show o.val * 1 + 0 = 0 * 2048 + o.val
    omega)

/-- With the host's reshapes read at an index, the program's result is the specified function of its arguments. -/
theorem result_eq (x0 : FVec Ideal S4x4096x2048 .f32) (x1 : FVec Ideal S2048x2048 .f32) (x2 : FVec Ideal S2048x1 .f32)
    (x3 x4 : FVec Ideal S1 .f32) (x5 : FVec Ideal S2048 .f32) :
    shapeCast S4x4096x2048
        (blockFn (shapeCast S16384x2048 x0 shapeCasts_S4x4096x2048_S16384x2048) x1 x2
          (shapeCast S1x2048 x2 shapeCasts_S2048x1_S1x2048) (shapeCast S1x1 x3 shapeCasts_S1_S1x1)
          (shapeCast S1x1 x4 shapeCasts_S1_S1x1) (shapeCast S1x2048 x5 shapeCasts_S2048_S1x2048))
        shapeCasts_S16384x2048_S4x4096x2048
      = out3 x0 x1 x2 x3 x4 x5 := by
  funext j
  obtain ⟨b, s, o, rfl⟩ : ∃ (b : Fin 4) (s : Fin 4096) (o : Fin 2048), j = ix3 b s o := ⟨j 0, j 1, j 2, eq_ix3 j⟩
  have hp : b.val * 4096 + s.val < 16384 := by have := b.isLt; have := s.isLt; omega
  rw [Regroup.shapeCast_splitFirst_apply _ _ b s o ⟨b.val * 4096 + s.val, hp⟩ rfl, blockFn_apply]
  have hx : ∀ k : Fin 2048, shapeCast S16384x2048 x0 shapeCasts_S4x4096x2048_S16384x2048 (ix2 ⟨b.val * 4096 + s.val, hp⟩ k) = x0 (ix3 b s k) :=
    fun k => Regroup.shapeCast_mergeFirst_apply x0 _ ⟨b.val * 4096 + s.val, hp⟩ k b s rfl
  simp only [hx, column_as_row, shapeCast_a_1a_apply]
  rfl

/-! ## The run, read -/

/-- Every weakly fair execution of the program terminates with its result at the specified function of its
    arguments, and the arguments unchanged. -/
theorem run : θ_run defs (onTc (τ := τ) (main (F := Ideal))) ⟨m, fun _ => 0, ρ⟩ fun r => ∀ c : Dev nD,
      r.2.mem ((c.tc : Thread nD τ).loc main_v6)
        = out3 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v6 (Pipeline.mem_restRefs_of main_v6 (by decide) (by decide))).trans ((tail_v6 m c).trans (by
        rw [final, V_v0, V_v1, V_v2, V_v3, V_v4, V_main_arg1, V_main_arg2]
        exact result_eq _ _ _ _ _ _)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.ArrayValue

end
-- ==== Proof.RefSide.lean ====
/-
  The reference program computes the specified function.

  Its result is read one operation at a time at an index (b, s, o): the contraction over the shared axis is a sum
  over i of the quantised activation at (b, s, i) times the quantised weight at (o, i); the scale broadcast over the
  leading axes reads sa · sw(o); the bias broadcast reads b(o). All the broadcasts and the reshape of the scale
  column only move indices.
-/
import proofs.«160613_j81681688035506_1_alg».proof.Proof.Gen.ReferenceIdeal.Run
import proofs.«160613_j81681688035506_1_alg».proof.Proof.Gen.ReferenceIdeal.Read
import proofs.«160613_j81681688035506_1_alg».proof.Proof.Spec

noncomputable section

open scoped BigOperators

namespace Cert.ReferenceIdeal.RefValue

open Cert.ReferenceIdeal Cert.ReferenceIdeal.Read Idealize.ShloMosaic Idealize.ShloMosaic.ValueIdx Cert.FakeQuant

variable (x0 : FVec Ideal S4x4096x2048 .f32) (x1 : FVec Ideal S2048x2048 .f32) (x2 : FVec Ideal S2048x1 .f32)
  (x3 x4 : FVec Ideal S1 .f32) (x5 : FVec Ideal S2048 .f32)

/-! Where each layout operation of the reference reads its operand: the index maps, composed, by coordinates. -/

theorem lhs_idx (b : Fin 4) (s : Fin 4096) (o i : Fin 2048) : lidx_main_v12 (ix3 b s o) i = ix3 b s i :=
  funext fun a => Fin.ext (by match a with | ⟨0, _⟩ => rfl | ⟨1, _⟩ => rfl | ⟨2, _⟩ => rfl)

theorem rhs_idx (b : Fin 4) (s : Fin 4096) (o i : Fin 2048) : ridx_main_v12 (ix3 b s o) i = ix2 o i :=
  funext fun a => Fin.ext (by match a with | ⟨0, _⟩ => rfl | ⟨1, _⟩ => rfl)

theorem zp_idx (j : S4x4096x2048.Idx) : idx_main_v0 (idx_main_v1 j) = (ix1 0 : S1.Idx) :=
  funext fun a => Fin.ext (by match a with | ⟨0, _⟩ => rfl)

theorem sa_idx (j : S4x4096x2048.Idx) : idx_main_v3 (idx_main_v4 j) = (ix1 0 : S1.Idx) :=
  funext fun a => Fin.ext (by match a with | ⟨0, _⟩ => rfl)

theorem sw_idx (o i : Fin 2048) : idx_main_v8 (ix2 o i) = (ix2 o 0 : S2048x1.Idx) :=
  funext fun a => Fin.ext (by match a with | ⟨0, _⟩ => rfl | ⟨1, _⟩ => rfl)

theorem sa_row_idx (j : S2048.Idx) : idx_main_v14 j = (ix1 0 : S1.Idx) :=
  funext fun a => Fin.ext (by match a with | ⟨0, _⟩ => rfl)

theorem sw_row_idx (b : Fin 4) (s : Fin 4096) (o : Fin 2048) :
    idx_main_v13 (idx_main_v16 (idx_main_v17 (ix3 b s o))) = (ix2 o 0 : S2048x1.Idx) :=
  funext fun a => Fin.ext (by
    match a with
    | ⟨0, _⟩ => exact Nat.div_one _
    | ⟨1, _⟩ => rfl)

theorem bias_idx (b : Fin 4) (s : Fin 4096) (o : Fin 2048) : idx_main_v19 (idx_main_v20 (ix3 b s o)) = (ix1 o : S2048.Idx) :=
  funext fun a => Fin.ext (by match a with | ⟨0, _⟩ => rfl)

/-- The quantised activation at (b, s, i). -/
theorem act_apply (b : Fin 4) (s : Fin 4096) (o i : Fin 2048) :
    val_main_v7 (F := Ideal) x0 x3 x4 (lidx_main_v12 (ix3 b s o) i) = qa (x0 (ix3 b s i)) (x4 (ix1 0)) (x3 (ix1 0)) := by
  rw [val_main_v7_apply, val_main_v6_apply, val_main_call0_v4_apply, val_main_call0_v3_apply, val_main_cst_0_apply,
    val_main_call0_v2_apply, val_main_call0_v1_apply, val_main_call0_v0_apply, val_main_cst_apply, val_main_v5_apply,
    val_main_v2_apply, val_main_v1_apply, val_main_v0_apply, val_main_v4_apply, val_main_v3_apply, zp_idx, sa_idx, lhs_idx]
  rfl

/-- The quantised weight at (o, i). -/
theorem weight_apply (b : Fin 4) (s : Fin 4096) (o i : Fin 2048) :
    val_main_v11 (F := Ideal) x1 x2 (ridx_main_v12 (ix3 b s o) i) = qw (x1 (ix2 o i)) (x2 (ix2 o 0)) := by
  rw [val_main_v11_apply, val_main_v10_apply, val_main_call2_v4_apply, val_main_call2_v3_apply, val_main_cst_2_apply,
    val_main_call2_v2_apply, val_main_call2_v1_apply, val_main_call2_v0_apply, val_main_cst_1_apply, val_main_v9_apply,
    val_main_v8_apply, rhs_idx, sw_idx]
  rfl

/-- The output scale at (b, s, o): the activation scale times the weight row's scale. -/
theorem scale_apply (b : Fin 4) (s : Fin 4096) (o : Fin 2048) :
    val_main_v17 (F := Ideal) x2 x3 (ix3 b s o) = x3 (ix1 0) * x2 (ix2 o 0) := by
  rw [val_main_v17_apply, val_main_v16_apply, val_main_v15_apply, val_main_v14_apply, val_main_v13_apply]
  rw [sw_row_idx, sa_row_idx]
  rfl

/-- The bias at (b, s, o). -/
theorem bias_apply (b : Fin 4) (s : Fin 4096) (o : Fin 2048) :
    val_main_v20 (F := Ideal) x5 (ix3 b s o) = x5 (ix1 o) := by
  rw [val_main_v20_apply, val_main_v19_apply, bias_idx]

/-- The reference's result is the specified function of its arguments. -/
theorem result_eq : val_main_v21 (F := Ideal) x0 x1 x2 x3 x4 x5 = out3 x0 x1 x2 x3 x4 x5 := by
  funext j
  obtain ⟨b, s, o, rfl⟩ : ∃ (b : Fin 4) (s : Fin 4096) (o : Fin 2048), j = ix3 b s o := ⟨j 0, j 1, j 2, eq_ix3 j⟩
  rw [val_main_v21_apply, val_main_v18_apply, val_main_v12_apply, scale_apply, bias_apply]
  simp only [act_apply, weight_apply]
  rfl

end Cert.ReferenceIdeal.RefValue

end
-- ==== Proof.lean ====
/-
  A linear layer on fake-quantised operands: activations x (viewed as 16384 rows of 2048) and weights w (2048 rows of
  2048) are each divided by a scale (x first shifted by a zero point), clamped to [-127, 127] and rounded to the
  nearest integer, the two integer-valued matrices are multiplied contracting the shared axis, and column o of the
  product is scaled by sa · sw(o) and shifted by the bias b(o).

  The kernel does this 128 activation rows at a time, quantising the whole weight matrix into a scratch buffer in
  eight blocks of 256 rows before each product; the reference does it with whole-array operations. On the extended
  reals both evaluate, at every (b, s, o), the same expression

      (∑ i, q ((x(b,s,i) − zp) / sa) · q (w(o,i) / sw(o))) · (sa · sw(o)) + b(o)

  with the same operations in the same order (a change of float format is the identity there), so the two results
  are equal whatever the inputs: no property of the inputs is used. The three programs' runs and the unchanged
  arguments come with the runs' own statements; the idealised kernel is the kernel's text read on the extended reals
  (no rewrite was made), so there is nothing to preserve.
-/
import proofs.«160613_j81681688035506_1_alg».proof.Defs
import proofs.«160613_j81681688035506_1_alg».proof.Proof.Gen.Kernel
import proofs.«160613_j81681688035506_1_alg».proof.Proof.Gen.KernelIdeal
import proofs.«160613_j81681688035506_1_alg».proof.Proof.Gen.ReferenceIdeal
import proofs.«160613_j81681688035506_1_alg».proof.Proof.Gen.Pre_finite_inputs
import proofs.«160613_j81681688035506_1_alg».proof.Proof.KernelFrame
import proofs.«160613_j81681688035506_1_alg».proof.Proof.KernelIdealFrame
import proofs.«160613_j81681688035506_1_alg».proof.Proof.KernelIdealValue
import proofs.«160613_j81681688035506_1_alg».proof.Proof.RefSide
import Idealize.ShloMosaic.Adequacy
import Idealize.ShloMosaic.Init

noncomputable section

namespace Cert.Proof

open Idealize.ShloMosaic Idealize.SL.Sem

/-- The kernel as printed runs to the end with its arguments unchanged. -/
theorem frame_k : Cert.frame_Kernel := fun m ρ _ => Cert.Kernel.GenP.frame m ρ

/-- So does the kernel read on the extended reals. -/
theorem frame_ki : Cert.frame_KernelIdeal := fun m ρ _ => Cert.KernelIdeal.GenP.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- Both programs end with the specified function of their (agreeing) arguments. -/
theorem algebraic : Cert.algebraic_KernelIdeal_ReferenceIdeal := by
  intro m ρ m' ρ' _ hagree
  refine ⟨fun c => Cert.FakeQuant.out3 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
